-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_arg1)) (v3 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_arg2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_arg2) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S21x64 : Shape := ⟨2, ![21, 64]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel
  bcast_S_S21x64 : S_.BroadcastsInDim S21x64 (![] : Fin 0 → Fin S21x64.rank)
  reducesTo_S21x64_S_d0_1 : S21x64.ReducesTo [0, 1] S_

variable [Facts]

def fn {F : FTy → Type} [FloatOps F] (main_arg0 : FVec F S8x64x256x256 .f32) (main_arg1 : FVec F S21x64 .f32) (main_arg2 : FVec F S21x64 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  let main_v4 : FVec F S21x64 .f32 := Host.absf main_arg1
  let main_cst_0 : FVec F S_ .f32 := constant S_ .f32 0x7F800000#32
  let main_v5 : FVec F S21x64 .f32 := broadcastInDim S21x64 ![] bcast_S_S21x64 main_cst_0
  let main_v6 : IVec S21x64 1 := cmpf .olt main_v4 main_v5
  let main_c_1 : IVec S_ 1 := constantI S_ 1 1#1
  let main_v7 : IVec S_ 1 := (fun x v => Host.reduce IntOp.andi x v reducesTo_S21x64_S_d0_1 h_S_) main_v6 main_c_1
  let main_v8 : IVec S_ 1 := andi main_v3 main_v7
  let main_v9 : FVec F S21x64 .f32 := Host.absf main_arg2
  let main_cst_2 : FVec F S_ .f32 := constant S_ .f32 0x7F800000#32
  let main_v10 : FVec F S21x64 .f32 := broadcastInDim S21x64 ![] bcast_S_S21x64 main_cst_2
  let main_v11 : IVec S21x64 1 := cmpf .olt main_v9 main_v10
  let main_c_3 : IVec S_ 1 := constantI S_ 1 1#1
  let main_v12 : IVec S_ 1 := (fun x v => Host.reduce IntOp.andi x v reducesTo_S21x64_S_d0_1 h_S_) main_v11 main_c_3
  let main_v13 : IVec S_ 1 := andi main_v8 main_v12
  main_v13
-- ==== Kernel.lean ====
abbrev S8x64x256x256 : Shape := ⟨4, ![8, 64, 256, 256]⟩
abbrev S21x64 : Shape := ⟨2, ![21, 64]⟩
abbrev S_ : Shape := ⟨0, ![]⟩
abbrev S21 : Shape := ⟨1, ![21]⟩
abbrev S21x1 : Shape := ⟨2, ![21, 1]⟩
abbrev S8x64x65536 : Shape := ⟨3, ![8, 64, 65536]⟩
abbrev S8x21x65536 : Shape := ⟨3, ![8, 21, 65536]⟩
abbrev S8x65536x64 : Shape := ⟨3, ![8, 65536, 64]⟩
abbrev S1x64x8192 : Shape := ⟨3, ![1, 64, 8192]⟩
abbrev S1x21x8192 : Shape := ⟨3, ![1, 21, 8192]⟩
abbrev S1x8192x64 : Shape := ⟨3, ![1, 8192, 64]⟩
abbrev S64x8192 : Shape := ⟨2, ![64, 8192]⟩
abbrev S21x8192 : Shape := ⟨2, ![21, 8192]⟩
abbrev S8192x64 : Shape := ⟨2, ![8192, 64]⟩
abbrev S8x21x256x256 : Shape := ⟨4, ![8, 21, 256, 256]⟩
abbrev S524288x64 : Shape := ⟨2, ![524288, 64]⟩

abbrev nBuf : Space → Nat
  | .hbm => 30
  | .vmem => 9
  | .smem => 0
  | _ => 0

abbrev bufTy : (tb : Table) → Fin (tcTables nBuf tb) → BufTy
  | .hbm, ⟨0, _⟩ => ⟨S8x64x256x256, .f32⟩
  | .hbm, ⟨1, _⟩ => ⟨S21x64, .f32⟩
  | .hbm, ⟨2, _⟩ => ⟨S21x64, .f32⟩
  | .hbm, ⟨3, _⟩ => ⟨S_, .f32⟩
  | .hbm, ⟨4, _⟩ => ⟨S21x64, .f32⟩
  | .hbm, ⟨5, _⟩ => ⟨S21x64, .f32⟩
  | .hbm, ⟨6, _⟩ => ⟨S_, .f32⟩
  | .hbm, ⟨7, _⟩ => ⟨S21x64, .f32⟩
  | .hbm, ⟨8, _⟩ => ⟨S21x64, .f32⟩
  | .hbm, ⟨9, _⟩ => ⟨S_, .f32⟩
  | .hbm, ⟨10, _⟩ => ⟨S21x64, .f32⟩
  | .hbm, ⟨11, _⟩ => ⟨S21x64, .f32⟩
  | .hbm, ⟨12, _⟩ => ⟨S21x64, .f32⟩
  | .hbm, ⟨13, _⟩ => ⟨S21x64, .f32⟩
  | .hbm, ⟨14, _⟩ => ⟨S21x64, .f32⟩
  | .hbm, ⟨15, _⟩ => ⟨S_, .f32⟩
  | .hbm, ⟨16, _⟩ => ⟨S21, .f32⟩
  | .hbm, ⟨17, _⟩ => ⟨S21x64, .f32⟩
  | .hbm, ⟨18, _⟩ => ⟨S_, .f32⟩
  | .hbm, ⟨19, _⟩ => ⟨S21, .f32⟩
  | .hbm, ⟨20, _⟩ => ⟨S_, .f32⟩
  | .hbm, ⟨21, _⟩ => ⟨S21, .f32⟩
  | .hbm, ⟨22, _⟩ => ⟨S21, .f32⟩
  | .hbm, ⟨23, _⟩ => ⟨S21, .f32⟩
  | .hbm, ⟨24, _⟩ => ⟨S21x1, .f32⟩
  | .hbm, ⟨25, _⟩ => ⟨S8x64x65536, .f32⟩
  | .hbm, ⟨26, _⟩ => ⟨S8x21x65536, .f32⟩
  | .hbm, ⟨27, _⟩ => ⟨S8x65536x64, .f32⟩
  | .hbm, ⟨28, _⟩ => ⟨S8x21x256x256, .f32⟩
  | .hbm, ⟨29, _⟩ => ⟨S524288x64, .f32⟩
  | .local _ .vmem, ⟨0, _⟩ => ⟨S1x64x8192, .f32⟩
  | .local _ .vmem, ⟨1, _⟩ => ⟨S1x64x8192, .f32⟩
  | .local _ .vmem, ⟨2, _⟩ => ⟨S21x64, .f32⟩
  | .local _ .vmem, ⟨3, _⟩ => ⟨S21x64, .f32⟩
  | .local _ .vmem, ⟨4, _⟩ => ⟨S21x1, .f32⟩
  | .local _ .vmem, ⟨5, _⟩ => ⟨S1x21x8192, .f32⟩
  | .local _ .vmem, ⟨6, _⟩ => ⟨S1x21x8192, .f32⟩
  | .local _ .vmem, ⟨7, _⟩ => ⟨S1x8192x64, .f32⟩
  | .local _ .vmem, ⟨8, _⟩ => ⟨S1x8192x64, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S21x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S21x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S21x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x21x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8192x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S21x64 : S_.BroadcastsInDim S21x64 (![] : Fin 0 → Fin S21x64.rank)
  reducesTo_S21x64_S21_d1 : S21x64.ReducesTo [1] S21
  h_S_ : 0 < S_.numel
  bcast_S_S21 : S_.BroadcastsInDim S21 (![] : Fin 0 → Fin S21.rank)
  shapeCasts_S21_S21x1 : S21.ShapeCasts S21x1
  shapeCasts_S8x64x256x256_S8x64x65536 : S8x64x256x256.ShapeCasts S8x64x65536
  inb_S1x64x8192_S1x64x8192_0_0_0 : ∀ a, (![0, 0, 0] : Fin 3 → Nat) a + S1x64x8192.size a ≤ S1x64x8192.size a
  h_S1x64x8192 : 0 < S1x64x8192.numel
  shapeCasts_S1x64x8192_S64x8192 : S1x64x8192.ShapeCasts S64x8192
  inb_S21x64_S21x64_0_0 : ∀ a, (![0, 0] : Fin 2 → Nat) a + S21x64.size a ≤ S21x64.size a
  h_S21x64 : 0 < S21x64.numel
  shapeCasts_S21x64_S21x64 : S21x64.ShapeCasts S21x64
  inb_S21x1_S21x1_0_0 : ∀ a, (![0, 0] : Fin 2 → Nat) a + S21x1.size a ≤ S21x1.size a
  h_S21x1 : 0 < S21x1.numel
  shapeCasts_S21x1_S21x1 : S21x1.ShapeCasts S21x1
  broadcasts_S21x1_S21x8192 : S21x1.Broadcasts S21x8192
  inb_S1x21x8192_S1x21x8192_0_0_0 : ∀ a, (![0, 0, 0] : Fin 3 → Nat) a + S1x21x8192.size a ≤ S1x21x8192.size a
  h_S1x21x8192 : 0 < S1x21x8192.numel
  shapeCasts_S1x21x8192_S21x8192 : S1x21x8192.ShapeCasts S21x8192
  shapeCasts_S21x8192_S1x21x8192 : S21x8192.ShapeCasts S1x21x8192
  transposes_S64x8192_p1_0_S8192x64 : S64x8192.Transposes [1, 0] S8192x64
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  shapeCasts_S8192x64_S1x8192x64 : S8192x64.ShapeCasts S1x8192x64
  shapeCasts_S8x21x65536_S8x21x256x256 : S8x21x65536.ShapeCasts S8x21x256x256
  shapeCasts_S8x65536x64_S524288x64 : S8x65536x64.ShapeCasts S524288x64
  dot_S21x64_S64x8192_S21x8192_1_0_0_1_n_n_wf : DotDims.WF S21x64 S64x8192 S21x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x8192.size a ≤ S8x64x65536.size a
  hwx0_0 : ∀ i : grid0.Coords, EltTy.bits .f32 = 32 ∨ (Rect.block (s := S8x64x65536) S1x64x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S21x64.size a ≤ S21x64.size a
  hwx0_1 : ∀ i : grid0.Coords, EltTy.bits .f32 = 32 ∨ (Rect.block (s := S21x64) S21x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S21x64.size a ≤ S21x64.size a
  hwx0_2 : ∀ i : grid0.Coords, EltTy.bits .f32 = 32 ∨ (Rect.block (s := S21x64) S21x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S21x1.size a ≤ S21x1.size a
  hwx0_3 : ∀ i : grid0.Coords, EltTy.bits .f32 = 32 ∨ (Rect.block (s := S21x1) S21x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x21x8192.size a ≤ S8x21x65536.size a
  hwx0_4 : ∀ i : grid0.Coords, EltTy.bits .f32 = 32 ∨ (Rect.block (s := S8x21x65536) S1x21x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8192x64.size a ≤ S8x65536x64.size a
  hwx0_5 : ∀ i : grid0.Coords, EltTy.bits .f32 = 32 ∨ (Rect.block (s := S8x65536x64) S1x8192x64.size (cc0_transform_5 i) (hinb0_5 i)).WholeWords (EltTy.packing .f32)

variable [Facts₀]

def dot_S21x64_S64x8192_S21x8192_1_0_0_1_n_n : DotDims S21x64 S64x8192 S21x8192 where
  lhsContracting := [1]
  rhsContracting := [0]
  lhsNonContracting := [0]
  rhsNonContracting := [1]
  lhsBatch := []
  rhsBatch := []
  wf := dot_S21x64_S64x8192_S21x8192_1_0_0_1_n_n_wf

abbrev win0_0 : Pipeline.Window sig grid0 :=
  Pipeline.Window.ofSpec (Memref.whole main_v16) S1x64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S21x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S21x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S21x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17_0) S1x21x8192.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17_1) S1x8192x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S21x64 : Shape := ⟨2, ![21, 64]⟩
abbrev S8x256x256x64 : Shape := ⟨4, ![8, 256, 256, 64]⟩
abbrev S524288x64 : Shape := ⟨2, ![524288, 64]⟩
abbrev S_ : Shape := ⟨0, ![]⟩
abbrev S524288x21 : Shape := ⟨2, ![524288, 21]⟩
abbrev S21 : Shape := ⟨1, ![21]⟩
abbrev S1x21 : Shape := ⟨2, ![1, 21]⟩
abbrev S8x256x256x21 : Shape := ⟨4, ![8, 256, 256, 21]⟩
abbrev S8x21x256x256 : Shape := ⟨4, ![8, 21, 256, 256]⟩

abbrev nBuf : Space → Nat
  | .hbm => 36
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S21x64, .f32⟩
  | .hbm, ⟨2, _⟩ => ⟨S21x64, .f32⟩
  | .hbm, ⟨3, _⟩ => ⟨S8x256x256x64, .f32⟩
  | .hbm, ⟨4, _⟩ => ⟨S524288x64, .f32⟩
  | .hbm, ⟨5, _⟩ => ⟨S_, .f32⟩
  | .hbm, ⟨6, _⟩ => ⟨S21x64, .f32⟩
  | .hbm, ⟨7, _⟩ => ⟨S21x64, .f32⟩
  | .hbm, ⟨8, _⟩ => ⟨S_, .f32⟩
  | .hbm, ⟨9, _⟩ => ⟨S21x64, .f32⟩
  | .hbm, ⟨10, _⟩ => ⟨S21x64, .f32⟩
  | .hbm, ⟨11, _⟩ => ⟨S_, .f32⟩
  | .hbm, ⟨12, _⟩ => ⟨S21x64, .f32⟩
  | .hbm, ⟨13, _⟩ => ⟨S21x64, .f32⟩
  | .hbm, ⟨14, _⟩ => ⟨S524288x64, .f32⟩
  | .hbm, ⟨15, _⟩ => ⟨S524288x21, .f32⟩
  | .hbm, ⟨16, _⟩ => ⟨S21x64, .f32⟩
  | .hbm, ⟨17, _⟩ => ⟨S524288x21, .f32⟩
  | .hbm, ⟨18, _⟩ => ⟨S21x64, .f32⟩
  | .hbm, ⟨19, _⟩ => ⟨S21x64, .f32⟩
  | .hbm, ⟨20, _⟩ => ⟨S_, .f32⟩
  | .hbm, ⟨21, _⟩ => ⟨S21, .f32⟩
  | .hbm, ⟨22, _⟩ => ⟨S21x64, .f32⟩
  | .hbm, ⟨23, _⟩ => ⟨S_, .f32⟩
  | .hbm, ⟨24, _⟩ => ⟨S21, .f32⟩
  | .hbm, ⟨25, _⟩ => ⟨S_, .f32⟩
  | .hbm, ⟨26, _⟩ => ⟨S21, .f32⟩
  | .hbm, ⟨27, _⟩ => ⟨S21, .f32⟩
  | .hbm, ⟨28, _⟩ => ⟨S21, .f32⟩
  | .hbm, ⟨29, _⟩ => ⟨S524288x21, .f32⟩
  | .hbm, ⟨30, _⟩ => ⟨S1x21, .f32⟩
  | .hbm, ⟨31, _⟩ => ⟨S524288x21, .f32⟩
  | .hbm, ⟨32, _⟩ => ⟨S524288x21, .f32⟩
  | .hbm, ⟨33, _⟩ => ⟨S8x256x256x21, .f32⟩
  | .hbm, ⟨34, _⟩ => ⟨S8x21x256x256, .f32⟩
  | .hbm, ⟨35, _⟩ => ⟨S8x21x256x256, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  transposes_S8x64x256x256_S8x256x256x64_0_2_3_1 : S8x64x256x256.Transposes [0, 2, 3, 1] S8x256x256x64
  shapeCasts_S8x256x256x64_S524288x64 : S8x256x256x64.ShapeCasts S524288x64
  bcast_S_S21x64 : S_.BroadcastsInDim S21x64 (![] : Fin 0 → Fin S21x64.rank)
  reducesTo_S21x64_S21_d1 : S21x64.ReducesTo [1] S21
  h_S_ : 0 < S_.numel
  bcast_S_S21 : S_.BroadcastsInDim S21 (![] : Fin 0 → Fin S21.rank)
  bcast_S21_S1x21_1 : S21.BroadcastsInDim S1x21 (![1] : Fin 1 → Fin S1x21.rank)
  bcast_S1x21_S524288x21_0_1 : S1x21.BroadcastsInDim S524288x21 (![0, 1] : Fin 2 → Fin S524288x21.rank)
  shapeCasts_S524288x21_S8x256x256x21 : S524288x21.ShapeCasts S8x256x256x21
  transposes_S8x256x256x21_S8x21x256x256_0_3_1_2 : S8x256x256x21.Transposes [0, 3, 1, 2] S8x21x256x256
  dot_S524288x64_S21x64_S524288x21_1_1_0_0_n_n_wf : DotDims.WF S524288x64 S21x64 S524288x21 [1] [1] [0] [0] [] []

variable [Facts₀]

def dot_S524288x64_S21x64_S524288x21_1_1_0_0_n_n : DotDims S524288x64 S21x64 S524288x21 where
  lhsContracting := [1]
  rhsContracting := [1]
  lhsNonContracting := [0]
  rhsNonContracting := [0]
  lhsBatch := []
  rhsBatch := []
  wf := dot_S524288x64_S21x64_S524288x21_1_1_0_0_n_n_wf

class Facts : Prop extends Facts₀ where

variable [Facts]
-- ==== Proof.Score.lean ====
/-
  The mathematics of the certificate, with no program in sight.

  For one pixel with feature vector `x : Fin 64 → EReal`, and one class with coefficient rows `a` (the reciprocal of
  twice the variance), `b` (mean over variance) and additive constant `k`, both programs compute the negated expanded
  quadratic form

      score x a b k = -( (Σ_d a_d · x_d²  −  Σ_d b_d · x_d) + k ).

  The kernel writes the negation as `0 - y` and multiplies coefficient-first inside the two contractions; the
  reference negates and multiplies feature-first. On the extended reals the two spellings agree by commutativity of
  the product alone and `0 - y = -y`: no distributivity, no cancellation, hence no finiteness of the inputs is used.

  `res` and `pix` are the two result arrays as whole-array functions of the feature map and the coefficient arrays,
  index by index, over literal shapes: `res` the score image [8, 21, 256, 256], `pix` the feature map re-laid as one
  row per pixel [8·256·256, 64].
-/
import Idealize.ShloMosaic.PureOps.Ideal
import Idealize.ShloMosaic.Lib.ValueIdx

noncomputable section

open scoped BigOperators

namespace Cert.Score

open Idealize.ShloMosaic Idealize.ShloMosaic.ValueIdx

/-- The negated quadratic form of one pixel against one class, in the kernel's spelling. -/
def score (x a b : Fin 64 → EReal) (k : EReal) : EReal :=
  0 - ((∑ d : Fin 64, a d * (x d * x d) - ∑ d : Fin 64, b d * x d) + k)

/-- The reference's spelling — feature-first products, a genuine negation — is the same extended real: the product
    commutes term by term under each sum, and `0 - y = -y`. -/
theorem neg_eq_score (x a b : Fin 64 → EReal) (k : EReal) :
    -((∑ d : Fin 64, (x d * x d) * a d - ∑ d : Fin 64, x d * b d) + k) = score x a b k := by
  unfold score
  have h1 : ∀ d, (x d * x d) * a d = a d * (x d * x d) := fun d => mul_comm _ _
  have h2 : ∀ d, x d * b d = b d * x d := fun d => mul_comm _ _
  simp only [h1, h2]
  exact (zero_sub _).symm

/-- The score image: at (image n, class c, row h, column w) the score of pixel (n, h, w)'s feature vector against class
    c's coefficient rows and constant. -/
def res (ft : (⟨4, ![8, 64, 256, 256]⟩ : Shape).Idx → EReal) (A B : (⟨2, ![21, 64]⟩ : Shape).Idx → EReal)
    (K : (⟨1, ![21]⟩ : Shape).Idx → EReal) : (⟨4, ![8, 21, 256, 256]⟩ : Shape).Idx → EReal :=
  fun i => score (fun d => ft (ix4 (i 0) d (i 2) (i 3))) (fun d => A (ix2 (i 1) d)) (fun d => B (ix2 (i 1) d)) (K (ix1 (i 1)))

/-- The feature map with one row per pixel: row r = (n·256 + h)·256 + w holds pixel (n, h, w)'s 64 features. -/
def pix (ft : (⟨4, ![8, 64, 256, 256]⟩ : Shape).Idx → EReal) : (⟨2, ![524288, 64]⟩ : Shape).Idx → EReal :=
  fun i => ft (ix4 (⟨(i 0).val / 65536, by have := (i 0).isLt; simp at this; omega⟩ : Fin 8) (i 1)
    (⟨(i 0).val / 256 % 256, Nat.mod_lt _ (by norm_num)⟩ : Fin 256) (⟨(i 0).val % 256, Nat.mod_lt _ (by norm_num)⟩ : Fin 256))

end Cert.Score

end
-- ==== Proof.BlockValue.lean ====
/-
  One block of the kernel's two outputs, read at an index, on the extended reals.

  The body loads a [1, 64, 8192] block of the feature map (64 features × 8192 pixels of one image), the two [21, 64]
  coefficient arrays and the [21, 1] column of constants. Its first store holds, at (class c, pixel p), the score of
  pixel p's features against class c; its second store holds the block transposed, pixel-major.
-/
import proofs.«126959_j30726196036197_2_alg».proof.Proof.Gen.KernelIdeal.Skeleton
import proofs.«126959_j30726196036197_2_alg».proof.Proof.Score
import Idealize.ShloMosaic.Lib.ValueIdx
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx Cert.Score

/-- The block with its unit leading axis cast away, at (feature d, pixel p), is the loaded block at (0, d, p): the two
    indices have the same row-major position. -/
private theorem pay1_apply (x0 : Vec Ideal S1x64x8192 .f32) (d : Fin 64) (p : Fin 8192) :
    k0_pay1 (F := Ideal) x0 (ix2 d p) = x0 (ix3 (0 : Fin 1) d p) := by
  unfold k0_pay1
  refine shapeCast_apply x0 shapeCasts_S1x64x8192_S64x8192 (ix2 d p) (ix3 (0 : Fin 1) d p) ?_
  rw [Shape.rowMajor_val_three, Shape.rowMajor_val_two]
  show ((0 : Nat) * 64 + d.val) * 8192 + p.val = d.val * 8192 + p.val
  omega

/-- The left factor's index of the [21, 64] × [64, 8192] product, at output index j and contraction position q: its row
    is j's row (the one free axis of the left factor). -/
private theorem dot_lhs0 (j : S21x8192.Idx) (q : dot_S21x64_S64x8192_S21x8192_1_0_0_1_n_n.contr.Idx) :
    (dot_S21x64_S64x8192_S21x8192_1_0_0_1_n_n.lhsIdx j q 0).val = (j 0).val := by
  unfold DotDims.lhsIdx
  rw [dif_neg (show ¬(0 : Fin S21x64.rank) ∈ dot_S21x64_S64x8192_S21x8192_1_0_0_1_n_n.lhsBatch by decide),
    dif_pos (show (0 : Fin S21x64.rank) ∈ dot_S21x64_S64x8192_S21x8192_1_0_0_1_n_n.lhsNonContracting by decide)]
  rfl

/-- Its column is the contraction position (the left factor's one contracted axis). -/
private theorem dot_lhs1 (j : S21x8192.Idx) (q : dot_S21x64_S64x8192_S21x8192_1_0_0_1_n_n.contr.Idx) :
    (dot_S21x64_S64x8192_S21x8192_1_0_0_1_n_n.lhsIdx j q 1).val = (q ⟨0, by decide⟩).val :=
  dot_S21x64_S64x8192_S21x8192_1_0_0_1_n_n.lhsIdx_val_of_single rfl j q

/-- The right factor's index at the same j and q: its row is the contraction position (the right factor's one
    contracted axis). -/
private theorem dot_rhs0 (j : S21x8192.Idx) (q : dot_S21x64_S64x8192_S21x8192_1_0_0_1_n_n.contr.Idx) :
    (dot_S21x64_S64x8192_S21x8192_1_0_0_1_n_n.rhsIdx j q 0).val = (q ⟨0, by decide⟩).val :=
  dot_S21x64_S64x8192_S21x8192_1_0_0_1_n_n.rhsIdx_val_of_single rfl j q

/-- Its column is j's column (the one free axis of the right factor). -/
private theorem dot_rhs1 (j : S21x8192.Idx) (q : dot_S21x64_S64x8192_S21x8192_1_0_0_1_n_n.contr.Idx) :
    (dot_S21x64_S64x8192_S21x8192_1_0_0_1_n_n.rhsIdx j q 1).val = (j 1).val := by
  unfold DotDims.rhsIdx
  rw [dif_neg (show ¬(1 : Fin S64x8192.rank) ∈ dot_S21x64_S64x8192_S21x8192_1_0_0_1_n_n.rhsBatch by decide),
    dif_pos (show (1 : Fin S64x8192.rank) ∈ dot_S21x64_S64x8192_S21x8192_1_0_0_1_n_n.rhsNonContracting by decide)]
  rfl

/-- A [21, 64] by [64, 8192] matrix product into the zero accumulator, at (class c, pixel p): the sum over the 64
    features d of the left factor at (c, d) times the right factor at (d, p). The product's own sum runs over the
    one-axis contraction shape; it is carried to a sum over Fin 64 along the bijection that reads that one coordinate. -/
private theorem matmul_zero_apply (a : FVec Ideal S21x64 .f32) (b : FVec Ideal S64x8192 .f32) (c : Fin 21) (p : Fin 8192) :
    matmul dot_S21x64_S64x8192_S21x8192_1_0_0_1_n_n (some .fp32) a b (constant (F := Ideal) S21x8192 .f32 0x00000000#32) (ix2 c p)
      = ∑ d : Fin 64, a (ix2 c d) * b (ix2 d p) := by
  simp only [matmul]
  rw [Ideal.matmul_constant_zero_apply, ← Equiv.sum_comp (contrEquiv1 dot_S21x64_S64x8192_S21x8192_1_0_0_1_n_n 64 rfl rfl).symm]
  refine Finset.sum_congr rfl fun k _ => ?_
  have hk := contrEquiv1_symm_val dot_S21x64_S64x8192_S21x8192_1_0_0_1_n_n 64 rfl rfl k
  have el : dot_S21x64_S64x8192_S21x8192_1_0_0_1_n_n.lhsIdx (ix2 c p) ((contrEquiv1 dot_S21x64_S64x8192_S21x8192_1_0_0_1_n_n 64 rfl rfl).symm k) = ix2 c k :=
    funext fun a => Fin.ext (by
      match a with
      | ⟨0, _⟩ => exact dot_lhs0 _ _
      | ⟨1, _⟩ => exact (dot_lhs1 _ _).trans hk)
  have er : dot_S21x64_S64x8192_S21x8192_1_0_0_1_n_n.rhsIdx (ix2 c p) ((contrEquiv1 dot_S21x64_S64x8192_S21x8192_1_0_0_1_n_n 64 rfl rfl).symm k) = ix2 k p :=
    funext fun a => Fin.ext (by
      match a with
      | ⟨0, _⟩ => exact (dot_rhs0 _ _).trans hk
      | ⟨1, _⟩ => exact dot_rhs1 _ _)
  rw [el, er]

/-- The score block at (class c, pixel p): the two matrix products into zero accumulators are plain sums over the 64
    features, the column of constants is broadcast along the pixels, and the unit leading axis is cast away and back. -/
theorem scoreBlock_apply (x0 : Vec Ideal S1x64x8192 .f32) (x1 x2 : Vec Ideal S21x64 .f32) (x3 : Vec Ideal S21x1 .f32)
    (c : Fin 21) (p : Fin 8192) :
    k0_pay2 (F := Ideal) x0 x1 x2 x3 (ix3 (0 : Fin 1) c p)
      = score (fun d => x0 (ix3 (0 : Fin 1) d p)) (fun d => x1 (ix2 c d)) (fun d => x2 (ix2 c d)) (x3 (ix2 c (0 : Fin 1))) := by
  unfold k0_pay2
  refine (shapeCast_apply _ shapeCasts_S21x8192_S1x21x8192 (ix3 (0 : Fin 1) c p) (ix2 c p) ?_).trans ?_
  · rw [Shape.rowMajor_val_three, Shape.rowMajor_val_two]
    show c.val * 8192 + p.val = ((0 : Nat) * 21 + c.val) * 8192 + p.val
    omega
  have hb : broadcastTo S21x8192 (shapeCast S21x1 x3 shapeCasts_S21x1_S21x1) broadcasts_S21x1_S21x8192 (ix2 c p)
      = x3 (ix2 c (0 : Fin 1)) := by
    rw [shapeCast_self]
    refine broadcastTo_apply x3 broadcasts_S21x1_S21x8192 (ix2 c p) (ix2 c (0 : Fin 1)) fun a => ?_
    match a with
    | ⟨0, _⟩ => show c.val = if (21 : Nat) = 1 then 0 else c.val; rw [if_neg (by decide)]
    | ⟨1, _⟩ => show 0 = if (1 : Nat) = 1 then 0 else p.val; rw [if_pos rfl]
  rw [subf_apply, addf_apply, subf_apply, broadcast_apply, matmul_zero_apply, matmul_zero_apply, hb,
    shapeCast_self, shapeCast_self, Ideal.ofBits_def, Ideal.ofBits_zero_f32]
  unfold score
  have h1 : ∀ d : Fin 64, x1 (ix2 c d) * mulf (k0_pay1 (F := Ideal) x0) (k0_pay1 (F := Ideal) x0) (ix2 d p)
      = x1 (ix2 c d) * (x0 (ix3 (0 : Fin 1) d p) * x0 (ix3 (0 : Fin 1) d p)) := fun d => by
    rw [mulf_apply, pay1_apply]
  have h2 : ∀ d : Fin 64, x2 (ix2 c d) * k0_pay1 (F := Ideal) x0 (ix2 d p) = x2 (ix2 c d) * x0 (ix3 (0 : Fin 1) d p) := fun d => by
    rw [pay1_apply]
  rw [Finset.sum_congr rfl fun d _ => h1 d, Finset.sum_congr rfl fun d _ => h2 d]

/-- The transposed block at (pixel p, feature d) is the loaded block at (feature d, pixel p). -/
theorem pixBlock_apply (x0 : Vec Ideal S1x64x8192 .f32) (p : Fin 8192) (d : Fin 64) :
    k0_pay3 (F := Ideal) x0 (ix3 (0 : Fin 1) p d) = x0 (ix3 (0 : Fin 1) d p) := by
  unfold k0_pay3
  refine (shapeCast_apply _ shapeCasts_S8192x64_S1x8192x64 (ix3 (0 : Fin 1) p d) (ix2 p d) ?_).trans ?_
  · rw [Shape.rowMajor_val_three, Shape.rowMajor_val_two]
    show p.val * 64 + d.val = ((0 : Nat) * 8192 + p.val) * 64 + d.val
    omega
  refine (transpose_apply [1, 0] _ transposes_S64x8192_p1_0_S8192x64 (ix2 p d) (ix2 d p) ?_).trans ?_
  · intro b
    match b with
    | ⟨0, _⟩ => rfl
    | ⟨1, _⟩ => rfl
  exact pay1_apply x0 d p

end Cert.KernelIdeal.BlockValue

end
-- ==== Proof.Arrays.lean ====
/-
  The two arrays the region writes, as functions of the arrays it stages — the shapes the pallas_call sees:
  the feature map [8, 64, 65536] (pixels of an image flattened), the coefficient arrays [21, 64] and the
  column of constants [21, 1].
-/
import proofs.«126959_j30726196036197_2_alg».proof.Proof.Gen.KernelIdeal
import proofs.«126959_j30726196036197_2_alg».proof.Proof.Score

noncomputable section

namespace Cert.KernelIdeal.Arrays

open Cert.KernelIdeal Idealize.ShloMosaic Idealize.ShloMosaic.ValueIdx Cert.Score

/-- The score array [8, 21, 65536]: at (n, c, q) the score of pixel q of image n against class c. -/
def scoreArr (ft3 : S8x64x65536.Idx → EReal) (A B : S21x64.Idx → EReal) (K : S21x1.Idx → EReal) : S8x21x65536.Idx → EReal :=
  fun i => score (fun d => ft3 (ix3 (i 0) d (i 2))) (fun d => A (ix2 (i 1) d)) (fun d => B (ix2 (i 1) d)) (K (ix2 (i 1) (0 : Fin 1)))

/-- The pixel-major array [8, 65536, 64]: at (n, q, d) the feature map at (n, d, q). -/
def pixArr (ft3 : S8x64x65536.Idx → EReal) : S8x65536x64.Idx → EReal :=
  fun i => ft3 (ix3 (i 0) (i 2) (i 1))

end Cert.KernelIdeal.Arrays

end
-- ==== Proof.ArrayValue.lean ====
/-
  The kernel's two output arrays after the region, each as ONE function of the arrays the region finds.

  Grid point (n, j) stages features × pixels block (n, ·, j) of the [8, 64, 65536] feature map and writes back block
  (n, ·, j) of the [8, 21, 65536] score array and block (n, j, ·) of the [8, 65536, 64] pixel-major array. The 64 blocks
  of each output tile it, so after the last point each array holds its function everywhere.
-/
import proofs.«126959_j30726196036197_2_alg».proof.Proof.Gen.KernelIdeal.Frame
import proofs.«126959_j30726196036197_2_alg».proof.Proof.BlockValue
import proofs.«126959_j30726196036197_2_alg».proof.Proof.Arrays

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.Score Cert.KernelIdeal.Arrays
open Idealize.ShloMosaic.Pipeline (Dat)

variable (m : (ℓ : Loc nD τ sig) → Buf (Elt Ideal) ℓ)

/-- The zero offsets of a rank-3 rectangle, however spelt. -/
private theorem zeros3 : (![0, 0, 0] : Fin 3 → Nat) = fun _ => 0 := funext fun a => by fin_cases a <;> rfl
/-- The zero offsets of a rank-2 rectangle, however spelt. -/
private theorem zeros2 : (![0, 0] : Fin 2 → Nat) = fun _ => 0 := funext fun a => by fin_cases a <;> rfl

/-- The printed index maps, decided over the 8 × 8 grid. At every point the feature block's index is (n, 0, j) where the
    score block's is (n, 0, j) and the pixel-major block's is (n, j, 0), with n, j ≤ 7; the two coefficient arrays and
    the column of constants are always at block (0, 0). -/
private theorem blockIndex_facts : ∀ t : Fin cfg0.N,
    win0_0.index t (0 : Fin 3) = win0_4.index t (0 : Fin 3)
    ∧ win0_0.index t (1 : Fin 3) = 0
    ∧ win0_0.index t (2 : Fin 3) = win0_4.index t (2 : Fin 3)
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 7 ∧ win0_4.index t (1 : Fin 3) = 0 ∧ win0_4.index t (2 : Fin 3) ≤ 7
    ∧ win0_5.index t (0 : Fin 3) = win0_4.index t (0 : Fin 3)
    ∧ win0_5.index t (1 : Fin 3) = win0_4.index t (2 : Fin 3)
    ∧ win0_5.index t (2 : Fin 3) = 0 :=
  (by decide +kernel : ∀ t : Fin grid0.N, _)

/-- Every score block (n, 0, j) is some point's. -/
private theorem scoreBlock_onto : ∀ (q0 : Fin 8) (q1 : Fin 8), ∃ t : Fin cfg0.N, win0_4.index t = ![q0.val, 0, q1.val] :=
  (by decide +kernel : ∀ (q0 : Fin 8) (q1 : Fin 8), ∃ t : Fin grid0.N, win0_4.index t = ![q0.val, 0, q1.val])

/-- Every pixel-major block (n, j, 0) is some point's. -/
private theorem pixBlock_onto : ∀ (q0 : Fin 8) (q1 : Fin 8), ∃ t : Fin cfg0.N, win0_5.index t = ![q0.val, q1.val, 0] :=
  (by decide +kernel : ∀ (q0 : Fin 8) (q1 : Fin 8), ∃ t : Fin grid0.N, win0_5.index t = ![q0.val, q1.val, 0])

/-- Two scores agree when their feature vectors, coefficient rows and constants agree entry by entry. -/
private theorem score_congr {x x' a a' b b' : Fin 64 → EReal} {k k' : EReal} (hx : ∀ d, x d = x' d) (ha : ∀ d, a d = a' d)
    (hb : ∀ d, b d = b' d) (hk : k = k') : score x a b k = score x' a' b' k' := by
  obtain rfl : x = x' := funext hx
  obtain rfl : a = a' := funext ha
  obtain rfl : b = b' := funext hb
  rw [hk]

/-- The score payload at any index of its [1, 21, 8192] block: the leading coordinate can only be 0. -/
private theorem scorePayload_apply (x0 : Vec Ideal S1x64x8192 .f32) (x1 x2 : Vec Ideal S21x64 .f32) (x3 : Vec Ideal S21x1 .f32)
    (y : S1x21x8192.Idx) :
    k0_pay2 (F := Ideal) x0 x1 x2 x3 y
      = score (fun d => x0 (ix3 (0 : Fin 1) d (y 2))) (fun d => x1 (ix2 (y 1) d)) (fun d => x2 (ix2 (y 1) d))
          (x3 (ix2 (y 1) (0 : Fin 1))) := by
  obtain ⟨a, b, p, rfl⟩ : ∃ (a : Fin 1) (b : Fin 21) (p : Fin 8192), y = ix3 a b p := ⟨_, _, _, eq_ix3 y⟩
  obtain rfl : a = 0 := Subsingleton.elim _ _
  exact BlockValue.scoreBlock_apply x0 x1 x2 x3 b p

/-- The feature block a point stages, at (feature d, pixel p), is the feature map at the array index that has the
    point's image, feature d, and pixel 8192 × (the point's pixel block) + p. -/
private theorem featBlock_apply (c : Dev nD) (t : Fin cfg0.N) (d : Fin 64) (p : Fin 8192) (i : S8x64x65536.Idx)
    (h0 : (i 0).val = win0_0.index t (0 : Fin 3)) (h1 : (i 1).val = d.val)
    (h2 : (i 2).val = win0_0.index t (2 : Fin 3) * 8192 + p.val) :
    (iblk m c 0 t : Vec Ideal S1x64x8192 .f32) (ix3 (0 : Fin 1) d p) = (V m c main_v16 : S8x64x65536.Idx → EReal) i := by
  obtain ⟨-, e1, -⟩ := blockIndex_facts t
  show (V m c main_v16 : S8x64x65536.Idx → EReal) (((cfg0.win 0).blk t).view.emb (ix3 (0 : Fin 1) d p)) = _
  refine congrArg _ ?_
  funext a; apply Fin.ext
  match a with
  | ⟨0, _⟩ => show win0_0.index t (0 : Fin 3) * 1 + 1 * 0 = (i 0).val; omega
  | ⟨1, _⟩ => show win0_0.index t (1 : Fin 3) * 64 + 1 * d.val = (i 1).val; omega
  | ⟨2, _⟩ => show win0_0.index t (2 : Fin 3) * 8192 + 1 * p.val = (i 2).val; omega

/-- The first coefficient array is staged whole: its block at any point is the array. -/
private theorem coefA_apply (c : Dev nD) (t : Fin cfg0.N) (y : S21x64.Idx) :
    (iblk m c 1 t : Vec Ideal S21x64 .f32) y = (V m c main_v5 : S21x64.Idx → EReal) y := by
  obtain ⟨-, -, -, e0, e1, -⟩ := blockIndex_facts t
  show (V m c main_v5 : S21x64.Idx → EReal) (((cfg0.win 1).blk t).view.emb y) = _
  refine congrArg _ ?_
  funext a; apply Fin.ext
  match a with
  | ⟨0, _⟩ => show win0_1.index t (0 : Fin 2) * 21 + 1 * (y 0).val = (y 0).val; omega
  | ⟨1, _⟩ => show win0_1.index t (1 : Fin 2) * 64 + 1 * (y 1).val = (y 1).val; omega

/-- So is the second coefficient array. -/
private theorem coefB_apply (c : Dev nD) (t : Fin cfg0.N) (y : S21x64.Idx) :
    (iblk m c 2 t : Vec Ideal S21x64 .f32) y = (V m c main_v6 : S21x64.Idx → EReal) y := by
  obtain ⟨-, -, -, -, -, e0, e1, -⟩ := blockIndex_facts t
  show (V m c main_v6 : S21x64.Idx → EReal) (((cfg0.win 2).blk t).view.emb y) = _
  refine congrArg _ ?_
  funext a; apply Fin.ext
  match a with
  | ⟨0, _⟩ => show win0_2.index t (0 : Fin 2) * 21 + 1 * (y 0).val = (y 0).val; omega
  | ⟨1, _⟩ => show win0_2.index t (1 : Fin 2) * 64 + 1 * (y 1).val = (y 1).val; omega

/-- And the column of constants. -/
private theorem const_apply (c : Dev nD) (t : Fin cfg0.N) (y : S21x1.Idx) :
    (iblk m c 3 t : Vec Ideal S21x1 .f32) y = (V m c main_v15 : S21x1.Idx → EReal) y := by
  obtain ⟨-, -, -, -, -, -, -, e0, e1, -⟩ := blockIndex_facts t
  show (V m c main_v15 : S21x1.Idx → EReal) (((cfg0.win 3).blk t).view.emb y) = _
  refine congrArg _ ?_
  funext a; apply Fin.ext
  match a with
  | ⟨0, _⟩ => show win0_3.index t (0 : Fin 2) * 21 + 1 * (y 0).val = (y 0).val; omega
  | ⟨1, _⟩ => show win0_3.index t (1 : Fin 2) * 1 + 1 * (y 1).val = (y 1).val; omega

/-- WHAT A POINT WRITES BACK to the score array is its block of `scoreArr` of the arrays the region finds. -/
private theorem scoreBlock_written (c : Dev nD) (t : Fin cfg0.N) :
    (dats m 0 c).flushed 4 t = ((cfg0.win 4).blk t).view.read (Elt Ideal)
      (scoreArr (V m c main_v16) (V m c main_v5) (V m c main_v6) (V m c main_v15)) := by
  show (cfg0.win 4).cut (grid0.coords t) ((dats m 0 c).after 4 t) = _
  rw [after0_4]
  unfold out0_4
  rw [View.canon_unit_zero zeros3]
  simp only [View.ld_unit_zero (S := S1x64x8192) zeros3, View.ld_unit_zero (S := S21x64) zeros2, View.ld_unit_zero (S := S21x1) zeros2]
  funext j
  refine (scorePayload_apply (iblk m c 0 t) (iblk m c 1 t) (iblk m c 2 t) (iblk m c 3 t)
    ((win0 4).xinj (grid0.coords t) j)).trans ?_
  obtain ⟨e0, -, e2, -, -, -, -, -, -, -, e41, -⟩ := blockIndex_facts t
  have hj0 : (j 0).val < 1 := (j 0).isLt
  have hj1 : (j 1).val < 21 := (j 1).isLt
  have hj2 : (j 2).val < 8192 := (j 2).isLt
  show score _ _ _ _ = score
    (fun d => (V m c main_v16 : S8x64x65536.Idx → EReal) (ix3 ((((cfg0.win 4).blk t).view.emb j) 0) d ((((cfg0.win 4).blk t).view.emb j) 2)))
    (fun d => (V m c main_v5 : S21x64.Idx → EReal) (ix2 ((((cfg0.win 4).blk t).view.emb j) 1) d))
    (fun d => (V m c main_v6 : S21x64.Idx → EReal) (ix2 ((((cfg0.win 4).blk t).view.emb j) 1) d))
    ((V m c main_v15 : S21x1.Idx → EReal) (ix2 ((((cfg0.win 4).blk t).view.emb j) 1) (0 : Fin 1)))
  have i1 : ((((cfg0.win 4).blk t).view.emb j) 1) = (⟨(j 1).val, hj1⟩ : Fin 21) := by
    apply Fin.ext
    show win0_4.index t (1 : Fin 3) * 21 + 1 * (j 1).val = (j 1).val
    omega
  refine score_congr (fun d => ?_) (fun d => ?_) (fun d => ?_) ?_
  · refine featBlock_apply m c t d _ _ ?_ rfl ?_
    · show win0_4.index t (0 : Fin 3) * 1 + 1 * (j 0).val = win0_0.index t (0 : Fin 3); omega
    · show win0_4.index t (2 : Fin 3) * 8192 + 1 * (j 2).val = win0_0.index t (2 : Fin 3) * 8192 + (j 2).val; omega
  · rw [i1]; exact coefA_apply m c t _
  · rw [i1]; exact coefB_apply m c t _
  · rw [i1]; exact const_apply m c t _

/-- The transposed payload at any index of its [1, 8192, 64] block: the leading coordinate can only be 0. -/
private theorem pixPayload_apply (x0 : Vec Ideal S1x64x8192 .f32) (y : S1x8192x64.Idx) :
    k0_pay3 (F := Ideal) x0 y = x0 (ix3 (0 : Fin 1) (y 2) (y 1)) := by
  obtain ⟨a, p, d, rfl⟩ : ∃ (a : Fin 1) (p : Fin 8192) (d : Fin 64), y = ix3 a p d := ⟨_, _, _, eq_ix3 y⟩
  obtain rfl : a = 0 := Subsingleton.elim _ _
  exact BlockValue.pixBlock_apply x0 p d

/-- WHAT A POINT WRITES BACK to the pixel-major array is its block of `pixArr` of the feature map the region finds. -/
private theorem pixBlock_written (c : Dev nD) (t : Fin cfg0.N) :
    (dats m 0 c).flushed 5 t = ((cfg0.win 5).blk t).view.read (Elt Ideal) (pixArr (V m c main_v16)) := by
  show (cfg0.win 5).cut (grid0.coords t) ((dats m 0 c).after 5 t) = _
  rw [after0_5]
  unfold out0_5
  rw [View.canon_unit_zero zeros3]
  simp only [View.ld_unit_zero (S := S1x64x8192) zeros3]
  funext j
  refine (pixPayload_apply (iblk m c 0 t) ((win0 5).xinj (grid0.coords t) j)).trans ?_
  obtain ⟨e0, -, e2, -, -, -, -, -, -, -, -, -, e50, e51, e52⟩ := blockIndex_facts t
  have hj0 : (j 0).val < 1 := (j 0).isLt
  have hj1 : (j 1).val < 8192 := (j 1).isLt
  have hj2 : (j 2).val < 64 := (j 2).isLt
  show (iblk m c 0 t : Vec Ideal S1x64x8192 .f32) (ix3 (0 : Fin 1) (⟨(j 2).val, hj2⟩ : Fin 64) (⟨(j 1).val, hj1⟩ : Fin 8192))
    = (V m c main_v16 : S8x64x65536.Idx → EReal) (ix3 ((((cfg0.win 5).blk t).view.emb j) 0) ((((cfg0.win 5).blk t).view.emb j) 2)
        ((((cfg0.win 5).blk t).view.emb j) 1))
  refine featBlock_apply m c t _ _ _ ?_ ?_ ?_
  · show win0_5.index t (0 : Fin 3) * 1 + 1 * (j 0).val = win0_0.index t (0 : Fin 3); omega
  · show win0_5.index t (2 : Fin 3) * 64 + 1 * (j 2).val = (j 2).val; omega
  · show win0_5.index t (1 : Fin 3) * 8192 + 1 * (j 1).val = win0_0.index t (2 : Fin 3) * 8192 + (j 1).val; omega

/-- An index of the score array is in a point's block iff each coordinate is in the block's range on its axis. -/
private theorem mem_scoreBlock (t : Fin cfg0.N) (i : S8x21x65536.Idx) :
    i ∈ ((cfg0.win 4).blk t).view.set ↔ ∀ a : Fin 3, win0_4.index t a * S1x21x8192.size a ≤ (i a).val
      ∧ (i a).val < win0_4.index t a * S1x21x8192.size a + S1x21x8192.size a := by
  show i ∈ ((View.whole main_v17_0).slice (win0_4.rect t)).set ↔ _
  rw [View.set_slice_whole, Rect.mem_set_unit]
  exact Iff.rfl

/-- An index of the pixel-major array is in a point's block iff each coordinate is in the block's range on its axis. -/
private theorem mem_pixBlock (t : Fin cfg0.N) (i : S8x65536x64.Idx) :
    i ∈ ((cfg0.win 5).blk t).view.set ↔ ∀ a : Fin 3, win0_5.index t a * S1x8192x64.size a ≤ (i a).val
      ∧ (i a).val < win0_5.index t a * S1x8192x64.size a + S1x8192x64.size a := by
  show i ∈ ((View.whole main_v17_1).slice (win0_5.rect t)).set ↔ _
  rw [View.set_slice_whole, Rect.mem_set_unit]
  exact Iff.rfl

/-- The 64 score blocks tile the array: index (n, c, q) is in the block of the point whose block index is
    (n, 0, q / 8192). -/
private theorem scoreBlocks_cover (i : S8x21x65536.Idx) :
    ∃ t : Fin cfg0.N, (cfg0.win 4).flush t = true ∧ i ∈ ((cfg0.win 4).blk t).view.set := by
  have hi0 : (i 0).val < 8 := (i 0).isLt
  have hi1 : (i 1).val < 21 := (i 1).isLt
  have hi2 : (i 2).val < 65536 := (i 2).isLt
  obtain ⟨t, ht⟩ := scoreBlock_onto ⟨(i 0).val, hi0⟩ ⟨(i 2).val / 8192, by omega⟩
  have q0 : win0_4.index t (0 : Fin 3) = (i 0).val := congrFun ht 0
  have q1 : win0_4.index t (1 : Fin 3) = 0 := congrFun ht 1
  have q2 : win0_4.index t (2 : Fin 3) = (i 2).val / 8192 := congrFun ht 2
  refine ⟨t, flush0_4 t, ?_⟩
  rw [mem_scoreBlock]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 21 ≤ (i 1).val ∧ (i 1).val < win0_4.index t (1 : Fin 3) * 21 + 21; omega
  | ⟨2, _⟩ => show win0_4.index t (2 : Fin 3) * 8192 ≤ (i 2).val ∧ (i 2).val < win0_4.index t (2 : Fin 3) * 8192 + 8192; omega

/-- The 64 pixel-major blocks tile the array: index (n, q, d) is in the block of the point whose block index is
    (n, q / 8192, 0). -/
private theorem pixBlocks_cover (i : S8x65536x64.Idx) :
    ∃ t : Fin cfg0.N, (cfg0.win 5).flush t = true ∧ i ∈ ((cfg0.win 5).blk t).view.set := by
  have hi0 : (i 0).val < 8 := (i 0).isLt
  have hi1 : (i 1).val < 65536 := (i 1).isLt
  have hi2 : (i 2).val < 64 := (i 2).isLt
  obtain ⟨t, ht⟩ := pixBlock_onto ⟨(i 0).val, hi0⟩ ⟨(i 1).val / 8192, by omega⟩
  have q0 : win0_5.index t (0 : Fin 3) = (i 0).val := congrFun ht 0
  have q1 : win0_5.index t (1 : Fin 3) = (i 1).val / 8192 := congrFun ht 1
  have q2 : win0_5.index t (2 : Fin 3) = 0 := congrFun ht 2
  refine ⟨t, flush0_5 t, ?_⟩
  rw [mem_pixBlock]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 8192 ≤ (i 1).val ∧ (i 1).val < win0_5.index t (1 : Fin 3) * 8192 + 8192; omega
  | ⟨2, _⟩ => show win0_5.index t (2 : Fin 3) * 64 ≤ (i 2).val ∧ (i 2).val < win0_5.index t (2 : Fin 3) * 64 + 64; omega

/-- After the run the score array holds `scoreArr` of the arrays the region finds. -/
theorem final_score (c : Dev nD) :
    (dats m 0 c).arrAt 4 cfg0.N = scoreArr (V m c main_v16) (V m c main_v5) (V m c main_v6) (V m c main_v15) :=
  (dats m 0 c).arrAt_eq_of_cover 4 (scoreArr (V m c main_v16) (V m c main_v5) (V m c main_v6) (V m c main_v15))
    (fun t _ => scoreBlock_written m c t) scoreBlocks_cover

/-- After the run the pixel-major array holds `pixArr` of the feature map the region finds. -/
theorem final_pix (c : Dev nD) :
    (dats m 0 c).arrAt 5 cfg0.N = pixArr (V m c main_v16) :=
  (dats m 0 c).arrAt_eq_of_cover 5 (pixArr (V m c main_v16)) (fun t _ => pixBlock_written m c t) pixBlocks_cover

end Cert.KernelIdeal.ArrayValue

end
-- ==== Proof.Layout.lean ====
/-
  The reshapes around the region, read at an index.

  Before the region the feature map [8, 64, 256, 256] is viewed [8, 64, 65536] (pixel q = h·256 + w) and the vector of
  constants [21] as a column [21, 1]; after it the score array [8, 21, 65536] is viewed [8, 21, 256, 256] and the
  pixel-major array [8, 65536, 64] as [524288, 64] (row r = n·65536 + q). Read through these views, the region's
  two arrays are the certificate's two result functions.
-/
import proofs.«126959_j30726196036197_2_alg».proof.Proof.Arrays
import Idealize.ShloMosaic.Lib.Pipeline.Value

noncomputable section

namespace Cert.KernelIdeal.Layout

open Cert.KernelIdeal Cert.KernelIdeal.Gen Idealize.ShloMosaic Idealize.ShloMosaic.ValueIdx Cert.Score Cert.KernelIdeal.Arrays

/-- The flattened feature map read at (n, d, q) with q = h·256 + w is the feature map at (n, d, h, w): the two indices
    have the same row-major position. -/
private theorem flat_apply (ft : S8x64x256x256.Idx → EReal) (n : Fin 8) (d : Fin 64) (h w : Fin 256) (q : Fin 65536)
    (hq : q.val = h.val * 256 + w.val) :
    shapeCast S8x64x65536 ft shapeCasts_S8x64x256x256_S8x64x65536 (ix3 n d q) = ft (ix4 n d h w) := by
  refine shapeCast_apply ft shapeCasts_S8x64x256x256_S8x64x65536 (ix3 n d q) (ix4 n d h w) ?_
  rewrite [Shape.rowMajor_val_three, Shape.rowMajor_val_four]
  show ((n.val * 64 + d.val) * 256 + h.val) * 256 + w.val = (n.val * 64 + d.val) * 65536 + q.val
  omega

/-- The column of constants read at (c, 0) is the vector of constants at c. -/
private theorem col_apply (K : S21.Idx → EReal) (c : Fin 21) :
    shapeCast S21x1 K shapeCasts_S21_S21x1 (ix2 c (0 : Fin 1)) = K (ix1 c) := by
  refine shapeCast_apply K shapeCasts_S21_S21x1 (ix2 c (0 : Fin 1)) (ix1 c) ?_
  rewrite [Shape.rowMajor_val_one, Shape.rowMajor_val_two]
  show c.val = c.val * 1 + 0
  omega

/-- The score array of the flattened feature map and the column of constants, viewed [8, 21, 256, 256], is the score
    image of the feature map and the vector of constants. -/
theorem res_layout (ft : S8x64x256x256.Idx → EReal) (A B : S21x64.Idx → EReal) (K : S21.Idx → EReal) :
    shapeCast S8x21x256x256
        (scoreArr (shapeCast S8x64x65536 ft shapeCasts_S8x64x256x256_S8x64x65536) A B (shapeCast S21x1 K shapeCasts_S21_S21x1))
        shapeCasts_S8x21x65536_S8x21x256x256
      = res ft A B K := by
  funext i
  obtain ⟨n, c, h, w, rfl⟩ : ∃ (n : Fin 8) (c : Fin 21) (h w : Fin 256), i = ix4 n c h w :=
    ⟨i 0, i 1, i 2, i 3, eq_ix4 i⟩
  have hh : h.val < 256 := h.isLt
  have hw : w.val < 256 := w.isLt
  refine (shapeCast_apply _ shapeCasts_S8x21x65536_S8x21x256x256 (ix4 n c h w)
    (ix3 n c (⟨h.val * 256 + w.val, by omega⟩ : Fin 65536)) ?_).trans ?_
  · rewrite [Shape.rowMajor_val_three, Shape.rowMajor_val_four]
    show (n.val * 21 + c.val) * 65536 + (h.val * 256 + w.val) = ((n.val * 21 + c.val) * 256 + h.val) * 256 + w.val
    omega
  · show score (fun d => shapeCast S8x64x65536 ft shapeCasts_S8x64x256x256_S8x64x65536
          (ix3 n d (⟨h.val * 256 + w.val, by omega⟩ : Fin 65536)))
        (fun d => A (ix2 c d)) (fun d => B (ix2 c d)) (shapeCast S21x1 K shapeCasts_S21_S21x1 (ix2 c (0 : Fin 1)))
      = score (fun d => ft (ix4 n d h w)) (fun d => A (ix2 c d)) (fun d => B (ix2 c d)) (K (ix1 c))
    rw [col_apply K c]
    exact congrArg (fun x => score x (fun d => A (ix2 c d)) (fun d => B (ix2 c d)) (K (ix1 c)))
      (funext fun d => flat_apply ft n d h w _ rfl)

/-- The pixel-major array of the flattened feature map, viewed [524288, 64], is the feature map with one row per pixel. -/
theorem pix_layout (ft : S8x64x256x256.Idx → EReal) :
    shapeCast S524288x64 (pixArr (shapeCast S8x64x65536 ft shapeCasts_S8x64x256x256_S8x64x65536)) shapeCasts_S8x65536x64_S524288x64
      = pix ft := by
  funext i
  obtain ⟨r, d, rfl⟩ : ∃ (r : Fin 524288) (d : Fin 64), i = ix2 r d := ⟨i 0, i 1, eq_ix2 i⟩
  have hr : r.val < 524288 := r.isLt
  have hd : d.val < 64 := d.isLt
  refine (shapeCast_apply _ shapeCasts_S8x65536x64_S524288x64 (ix2 r d)
    (ix3 (⟨r.val / 65536, by omega⟩ : Fin 8) (⟨r.val % 65536, by omega⟩ : Fin 65536) d) ?_).trans ?_
  · rewrite [Shape.rowMajor_val_three, Shape.rowMajor_val_two]
    show (r.val / 65536 * 65536 + r.val % 65536) * 64 + d.val = r.val * 64 + d.val
    omega
  · show shapeCast S8x64x65536 ft shapeCasts_S8x64x256x256_S8x64x65536
          (ix3 (⟨r.val / 65536, by omega⟩ : Fin 8) d (⟨r.val % 65536, by omega⟩ : Fin 65536))
        = ft (ix4 (⟨r.val / 65536, by omega⟩ : Fin 8) d
            (⟨r.val / 256 % 256, Nat.mod_lt _ (by norm_num)⟩ : Fin 256) (⟨r.val % 256, Nat.mod_lt _ (by norm_num)⟩ : Fin 256))
    refine flat_apply ft _ d _ _ _ ?_
    show r.val % 65536 = r.val / 256 % 256 * 256 + r.val % 256
    omega

end Cert.KernelIdeal.Layout

end
-- ==== Proof.HostValue.lean ====
/-
  The host lines around the region, and the kernel's run with its two results named.

  Before the region @main computes, from the means and variances, the coefficient arrays (reciprocal of twice the
  shifted variance; mean over shifted variance) and the vector of constants (Σ mean²·coefficient + ½ Σ log of the
  shifted variance), and views the feature map [8, 64, 65536]. These are the same host operations, literal for
  literal, as the reference's, so the arrays the region stages are the reference's own coefficient stages. After the
  region two reshapes view the region's arrays as the results.
-/
import proofs.«126959_j30726196036197_2_alg».proof.Proof.Gen.KernelIdeal.Frame
import proofs.«126959_j30726196036197_2_alg».proof.Proof.Gen.ReferenceIdeal.Read
import proofs.«126959_j30726196036197_2_alg».proof.Proof.ArrayValue
import proofs.«126959_j30726196036197_2_alg».proof.Proof.Layout
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem
open Cert.Score Cert.KernelIdeal.Arrays

variable (m : (ℓ : Loc nD τ sig) → Buf (Elt Ideal) ℓ) (ρ : Dev nD → PrngReg)

/-! ## The arrays the region finds

Each host line before the region writes its own result buffer, so a buffer's contents at the region's entry are the
composition of the lines that lead to it, applied to the arguments as launched. Those lines are the reference's, so the
composition is a stage of the reference's own chain, read at the same arguments. -/

/-- The feature map the region stages is the launched one viewed [8, 64, 65536]. -/
theorem entry_features (c : Dev nD) :
    (V m c main_v16 : S8x64x65536.Idx → EReal)
      = shapeCast S8x64x65536 (m ((c : Thread nD τ).loc main_arg0)) shapeCasts_S8x64x256x256_S8x64x65536 := by
  show StableHlo.after hostOps0 (fun b => m (c, b)) (Proc.devRef .tc main_v16) = _
  after_results
  rfl

/-- The quadratic coefficients the region stages: one over twice the shifted variance, the reference's stage. -/
theorem entry_quad (c : Dev nD) :
    (V m c main_v5 : S21x64.Idx → EReal)
      = Cert.ReferenceIdeal.Read.val_main_v7 (F := Ideal) (m ((c : Thread nD τ).loc main_arg2)) := by
  show StableHlo.after hostOps0 (fun b => m (c, b)) (Proc.devRef .tc main_v5) = _
  after_results
  rfl

/-- The linear coefficients the region stages: mean over shifted variance, the reference's stage. -/
theorem entry_lin (c : Dev nD) :
    (V m c main_v6 : S21x64.Idx → EReal)
      = Cert.ReferenceIdeal.Read.val_main_v10 (F := Ideal) (m ((c : Thread nD τ).loc main_arg1))
          (m ((c : Thread nD τ).loc main_arg2)) := by
  show StableHlo.after hostOps0 (fun b => m (c, b)) (Proc.devRef .tc main_v6) = _
  after_results
  rfl

/-- The constants the region stages: the reference's vector of constants, viewed as a column [21, 1]. -/
theorem entry_const (c : Dev nD) :
    (V m c main_v15 : S21x1.Idx → EReal)
      = shapeCast S21x1 (Cert.ReferenceIdeal.Read.val_main_v19 (F := Ideal) (m ((c : Thread nD τ).loc main_arg1))
          (m ((c : Thread nD τ).loc main_arg2))) shapeCasts_S21_S21x1 := by
  show StableHlo.after hostOps0 (fun b => m (c, b)) (Proc.devRef .tc main_v15) = _
  after_results
  rfl

/-! ## The two reshapes after the region

Each reads one array of the region — which holds what the region left there — and writes its own result buffer. -/

/-- The first result is the region's score array viewed [8, 21, 256, 256]. -/
theorem tail_res (c : Dev nD) :
    (Pipeline.afterTail₀ cfgs (dats m) 0 (V0 m) [hostOps1] c main_v18 : S8x21x256x256.Idx → EReal)
      = shapeCast S8x21x256x256 ((dats m 0 c).arrAt 4 cfg0.N) shapeCasts_S8x21x65536_S8x21x256x256 := by
  unfold Pipeline.afterTail₀
  show StableHlo.after hostOps1 _ (Proc.devRef .tc main_v18) = _
  after_results
  exact congrArg (fun x => shapeCast S8x21x256x256 x shapeCasts_S8x21x65536_S8x21x256x256)
    (Pipeline.withArrays_arr spec0 launch0.win.arr_inj c _ _ 4)

/-- The second result is the region's pixel-major array viewed [524288, 64]. -/
theorem tail_pix (c : Dev nD) :
    (Pipeline.afterTail₀ cfgs (dats m) 0 (V0 m) [hostOps1] c main_v19 : S524288x64.Idx → EReal)
      = shapeCast S524288x64 ((dats m 0 c).arrAt 5 cfg0.N) shapeCasts_S8x65536x64_S524288x64 := by
  unfold Pipeline.afterTail₀
  show StableHlo.after hostOps1 _ (Proc.devRef .tc main_v19) = _
  after_results
  exact congrArg (fun x => shapeCast S524288x64 x shapeCasts_S8x65536x64_S524288x64)
    (Pipeline.withArrays_arr spec0 launch0.win.arr_inj c _ _ 5)

/-! ## The run -/

/-- Every weakly fair execution of the idealized kernel's @main terminates with its first result the score image and
    its second the pixel-major feature map — of the feature map as launched and the reference's coefficient stages of
    the means and variances as launched — and the arguments unchanged. -/
theorem run : θ_run defs (onTc (τ := τ) (main (F := Ideal))) ⟨m, fun _ => 0, ρ⟩ fun r => ∀ c : Dev nD,
      r.2.mem ((c.tc : Thread nD τ).loc main_v18)
          = res (m ((c.tc : Thread nD τ).loc main_arg0))
              (Cert.ReferenceIdeal.Read.val_main_v7 (F := Ideal) (m ((c.tc : Thread nD τ).loc main_arg2)))
              (Cert.ReferenceIdeal.Read.val_main_v10 (F := Ideal) (m ((c.tc : Thread nD τ).loc main_arg1)) (m ((c.tc : Thread nD τ).loc main_arg2)))
              (Cert.ReferenceIdeal.Read.val_main_v19 (F := Ideal) (m ((c.tc : Thread nD τ).loc main_arg1)) (m ((c.tc : Thread nD τ).loc main_arg2)))
      ∧ r.2.mem ((c.tc : Thread nD τ).loc main_v19) = pix (m ((c.tc : Thread nD τ).loc main_arg0))
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run_main m ρ)
  -- the results and the arguments are unscoped buffers that are no array of the region: the run leaves each as the
  -- lines after the region do
  have h18 := (h c).2 main_v18 (Pipeline.mem_restRefs_of main_v18 (by decide) (by decide))
  have h19 := (h c).2 main_v19 (Pipeline.mem_restRefs_of main_v19 (by decide) (by decide))
  have a0 := ((h c).2 main_arg0 (Pipeline.mem_restRefs_of main_arg0 (by decide) (by decide))).trans (W_main_arg0 m (dats m) c)
  have a1 := ((h c).2 main_arg1 (Pipeline.mem_restRefs_of main_arg1 (by decide) (by decide))).trans (W_main_arg1 m (dats m) c)
  have a2 := ((h c).2 main_arg2 (Pipeline.mem_restRefs_of main_arg2 (by decide) (by decide))).trans (W_main_arg2 m (dats m) c)
  refine ⟨?_, ?_, a1, a2, a0, a1, a2⟩
  · -- the view of the score array, of the arrays the region finds, is the score image
    refine (h18.trans (tail_res m c)).trans ?_
    rw [ArrayValue.final_score, entry_features, entry_quad, entry_lin, entry_const]
    exact Layout.res_layout _ _ _ _
  · -- the view of the pixel-major array, of the feature map the region finds, is the feature map by pixel
    refine (h19.trans (tail_pix m c)).trans ?_
    rw [ArrayValue.final_pix, entry_features]
    exact Layout.pix_layout _

end Cert.KernelIdeal.HostValue

end
-- ==== Proof.RefValue.lean ====
/-
  The reference's two results, read at an index, are the certificate's two result functions.

  The reference lays the feature map out one row per pixel (a transpose and a reshape), takes the two contractions
  over the 64 features against the coefficient rows, subtracts, adds the constants broadcast along the pixels,
  reshapes and transposes back to [8, 21, 256, 256], and negates.
-/
import proofs.«126959_j30726196036197_2_alg».proof.Proof.Gen.ReferenceIdeal.Read
import proofs.«126959_j30726196036197_2_alg».proof.Proof.Score

noncomputable section

open scoped BigOperators

namespace Cert.ReferenceIdeal.RefValue

open Cert.ReferenceIdeal Cert.ReferenceIdeal.Gen Cert.ReferenceIdeal.Read Idealize.ShloMosaic Idealize.ShloMosaic.ValueIdx Cert.Score

/-- Pixel (n, h, w) sits in row r = (n·256 + h)·256 + w of the pixel-major layout, and class c in column c: reading the
    score image at (n, c, h, w) through the transpose and the reshape lands on element r·21 + c of the [524288, 21]
    array, whose row is r and whose column is c. Reading feature k of row r back through the first reshape and
    transpose, the flat position r·64 + k splits as (n, h, w, k), which is entry (n, k, h, w) of the feature map. -/
private theorem feat_idx9 (n : Fin 8) (c : Fin 21) (h w : Fin 256) (k : Fin 64) :
    idx_main_v0 (idx_main_v1 (lidx_main_v9 (idx_main_v24 (idx_main_v25 (ix4 n c h w))) k)) = ix4 n k h w := by
  have hn : n.val < 8 := n.isLt
  have hc : c.val < 21 := c.isLt
  have hh : h.val < 256 := h.isLt
  have hw : w.val < 256 := w.isLt
  have hk : k.val < 64 := k.isLt
  refine funext fun a => Fin.ext ?_
  match a with
  | ⟨0, _⟩ =>
    show ((((n.val * 256 + h.val) * 256 + w.val) * 21 + c.val) / 21 * 64 + k.val) / 4194304 = n.val
    omega
  | ⟨1, _⟩ =>
    show ((((n.val * 256 + h.val) * 256 + w.val) * 21 + c.val) / 21 * 64 + k.val) % 64 = k.val
    omega
  | ⟨2, _⟩ =>
    show ((((n.val * 256 + h.val) * 256 + w.val) * 21 + c.val) / 21 * 64 + k.val) / 16384 % 256 = h.val
    omega
  | ⟨3, _⟩ =>
    show ((((n.val * 256 + h.val) * 256 + w.val) * 21 + c.val) / 21 * 64 + k.val) / 64 % 256 = w.val
    omega

/-- The second contraction reads the feature map at the same entry. -/
private theorem feat_idx11 (n : Fin 8) (c : Fin 21) (h w : Fin 256) (k : Fin 64) :
    idx_main_v0 (idx_main_v1 (lidx_main_v11 (idx_main_v24 (idx_main_v25 (ix4 n c h w))) k)) = ix4 n k h w :=
  feat_idx9 n c h w k

/-- The column of element r·21 + c is c: the first contraction reads coefficient (c, k). -/
private theorem coef_idx9 (n : Fin 8) (c : Fin 21) (h w : Fin 256) (k : Fin 64) :
    ridx_main_v9 (idx_main_v24 (idx_main_v25 (ix4 n c h w))) k = ix2 c k := by
  have hc : c.val < 21 := c.isLt
  refine funext fun a => Fin.ext ?_
  match a with
  | ⟨0, _⟩ =>
    show ((((n.val * 256 + h.val) * 256 + w.val) * 21 + c.val)) % 21 = c.val
    omega
  | ⟨1, _⟩ => rfl

/-- The second contraction reads coefficient (c, k) of its own coefficient array. -/
private theorem coef_idx11 (n : Fin 8) (c : Fin 21) (h w : Fin 256) (k : Fin 64) :
    ridx_main_v11 (idx_main_v24 (idx_main_v25 (ix4 n c h w))) k = ix2 c k :=
  coef_idx9 n c h w k

/-- The constant broadcast along the pixels is read at class c. -/
private theorem const_idx (n : Fin 8) (c : Fin 21) (h w : Fin 256) :
    idx_main_v21 (idx_main_v22 (idx_main_v24 (idx_main_v25 (ix4 n c h w)))) = ix1 c := by
  have hc : c.val < 21 := c.isLt
  refine funext fun a => Fin.ext ?_
  match a with
  | ⟨0, _⟩ =>
    show ((((n.val * 256 + h.val) * 256 + w.val) * 21 + c.val)) % 21 = c.val
    omega

/-- The reference's first result is the score image of the feature map and its own coefficient stages. -/
theorem res_eq (x0 : (⟨S8x64x256x256, .f32⟩ : BufTy).Contents (Elt Ideal)) (x1 x2 : (⟨S21x64, .f32⟩ : BufTy).Contents (Elt Ideal)) :
    val_main_v26 (F := Ideal) x0 x1 x2
      = res x0 (val_main_v7 (F := Ideal) x2) (val_main_v10 (F := Ideal) x1 x2) (val_main_v19 (F := Ideal) x1 x2) := by
  funext i
  obtain ⟨n, c, h, w, rfl⟩ : ∃ (n : Fin 8) (c : Fin 21) (h w : Fin 256), i = ix4 n c h w := ⟨i 0, i 1, i 2, i 3, eq_ix4 i⟩
  rw [val_main_v26_apply, val_main_v25_apply, val_main_v24_apply, val_main_v23_apply, val_main_v20_apply, val_main_v22_apply, val_main_v21_apply, val_main_v9_apply, val_main_v11_apply]
  simp only [val_main_v8_apply, val_main_v1_apply, val_main_v0_apply, feat_idx9, feat_idx11, coef_idx9, coef_idx11, const_idx]
  simp only [Ideal.hostNegf_def, Ideal.negf_def, Ideal.subf_def, Ideal.addf_def, Ideal.mulf_def]
  exact neg_eq_score (fun d => x0 (ix4 n d h w)) (fun d => val_main_v7 (F := Ideal) x2 (ix2 c d))
    (fun d => val_main_v10 (F := Ideal) x1 x2 (ix2 c d)) (val_main_v19 (F := Ideal) x1 x2 (ix1 c))

/-- The reference's second result is the feature map with one row per pixel. -/
theorem pix_eq (x0 : (⟨S8x64x256x256, .f32⟩ : BufTy).Contents (Elt Ideal)) :
    val_main_v1 (F := Ideal) x0 = pix x0 := by
  funext i
  obtain ⟨r, k, rfl⟩ : ∃ (r : Fin 524288) (k : Fin 64), i = ix2 r k := ⟨i 0, i 1, eq_ix2 i⟩
  rw [val_main_v1_apply, val_main_v0_apply]
  unfold pix
  have hr : r.val < 524288 := r.isLt
  have hk : k.val < 64 := k.isLt
  -- flat position r·64 + k of the pixel-major layout splits as (r / 65536, r / 256 % 256, r % 256, k)
  refine congrArg x0 (funext fun a => Fin.ext ?_)
  match a with
  | ⟨0, _⟩ => show (r.val * 64 + k.val) / 4194304 = r.val / 65536; omega
  | ⟨1, _⟩ => show (r.val * 64 + k.val) % 64 = k.val; omega
  | ⟨2, _⟩ => show (r.val * 64 + k.val) / 16384 % 256 = r.val / 256 % 256; omega
  | ⟨3, _⟩ => show (r.val * 64 + k.val) / 64 % 256 = r.val % 256; omega

end Cert.ReferenceIdeal.RefValue

end
-- ==== Proof.lean ====
/-
  The proof of `Cert.Claim`: a diagonal-Gaussian class score over a feature map, as a Pallas kernel against its jnp
  reference, on the extended reals.

  For every pixel (n, h, w) of the feature map `ft : [8, 64, 256, 256]` and every class c of 21, both programs return

      res(n, c, h, w) = -( (Σ_d A(c,d) · ft(n,d,h,w)²  −  Σ_d B(c,d) · ft(n,d,h,w)) + K(c) ),

  with A = 1 / (2·(var + ε)), B = mean / (var + ε), K = Σ_d mean²·A + ½·Σ_d log(var + ε), and beside it the feature
  map with one row per pixel, and the means and variances unchanged. The coefficient arrays are computed on the host by
  the same operations, literal for literal, in both programs, so they enter the proof as opaque arrays. The kernel
  streams [64, 8192] blocks of the flattened feature map through two matrix products and a transpose; the reference
  lays the map out pixel-major and contracts with two `dot_general`s. On the extended reals a matrix product into a
  zero accumulator and a `dot_general` are the same finite sum, a change of layout moves no value, and the two
  spellings of the score differ by the commutativity of the product and `0 - y = -y` (Proof/Score.lean): the
  precondition is never opened.

  Modules: Score (the mathematics), BlockValue (one block of the kernel's outputs at an index), Arrays and ArrayValue
  (the region's two arrays after the run, as whole-array functions), Layout (the reshapes around the region),
  HostValue (the host lines around the region and the kernel's run), RefValue (the reference's results at an index).
  The three frames are the generated ones; the ideal pass rewrote nothing, so `preserves` is `True`.
-/
import proofs.«126959_j30726196036197_2_alg».proof.Defs
import proofs.«126959_j30726196036197_2_alg».proof.Proof.Gen.Kernel
import proofs.«126959_j30726196036197_2_alg».proof.Proof.Gen.Kernel.Skeleton
import proofs.«126959_j30726196036197_2_alg».proof.Proof.Gen.Kernel.Launch
import proofs.«126959_j30726196036197_2_alg».proof.Proof.Gen.Kernel.Points
import proofs.«126959_j30726196036197_2_alg».proof.Proof.Gen.Kernel.Frame
import proofs.«126959_j30726196036197_2_alg».proof.Proof.Gen.KernelIdeal
import proofs.«126959_j30726196036197_2_alg».proof.Proof.Gen.KernelIdeal.Skeleton
import proofs.«126959_j30726196036197_2_alg».proof.Proof.Gen.KernelIdeal.Launch
import proofs.«126959_j30726196036197_2_alg».proof.Proof.Gen.KernelIdeal.Points
import proofs.«126959_j30726196036197_2_alg».proof.Proof.Gen.KernelIdeal.Frame
import proofs.«126959_j30726196036197_2_alg».proof.Proof.Gen.ReferenceIdeal
import proofs.«126959_j30726196036197_2_alg».proof.Proof.Gen.Pre_finite_inputs
import proofs.«126959_j30726196036197_2_alg».proof.Proof.Gen.ReferenceIdeal.Run
import proofs.«126959_j30726196036197_2_alg».proof.Proof.Gen.ReferenceIdeal.Read
import proofs.«126959_j30726196036197_2_alg».proof.Proof.HostValue
import proofs.«126959_j30726196036197_2_alg».proof.Proof.RefValue
import Idealize.ShloMosaic.Adequacy
import Idealize.ShloMosaic.Init

noncomputable section

namespace Cert.Proof

open Idealize.ShloMosaic Idealize.SL.Sem

/-- The word-level kernel runs and leaves its arguments alone: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a host program: its frame is its generated run with the results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The ideal pass rewrote no operation. -/
theorem preserves : Cert.preserves_Kernel_KernelIdeal := trivial

/-- From memories agreeing on the three arguments both programs end with the score image, the pixel-major feature map,
    and the means and variances: the kernel's run names them so (HostValue.run), the reference's generated run states
    its results as its stages, which read at an index are the same two functions (RefValue.res_eq, RefValue.pix_eq). -/
theorem algebraic : Cert.algebraic_KernelIdeal_ReferenceIdeal := by
  intro m ρ m' ρ' _ hagree
  refine ⟨_, _, _, _, Cert.KernelIdeal.HostValue.run m ρ, ?_⟩
  refine (θ_run Cert.ReferenceIdeal.defs _ _).mono (fun _ h c => ⟨?_, ?_, ?_, ?_, (h c).2.2.2.2⟩)
    (Cert.ReferenceIdeal.Value.run (F := Ideal) m' ρ')
  · rw [(h c).1, Cert.ReferenceIdeal.Read.val_main_v26_eq, Cert.ReferenceIdeal.RefValue.res_eq,
      (hagree c).1, (hagree c).2.1, (hagree c).2.2]
  · rw [(h c).2.1, Cert.ReferenceIdeal.Read.val_main_v1_eq, Cert.ReferenceIdeal.RefValue.pix_eq, (hagree c).1]
  · rw [(h c).2.2.1, (hagree c).2.1]
  · rw [(h c).2.2.2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
